-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S1x1024x512 : Shape := ⟨3, ![1, 1024, 512]⟩
abbrev S1x2048x512 : Shape := ⟨3, ![1, 2048, 512]⟩
abbrev S1x1024x2048 : Shape := ⟨3, ![1, 1024, 2048]⟩
abbrev S1x1024 : Shape := ⟨2, ![1, 1024]⟩
abbrev S1x1024x1 : Shape := ⟨3, ![1, 1024, 1]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x2048x512, .f32⟩
  | .local _ .vmem, ⟨3, _⟩ => ⟨S1x2048x512, .f32⟩
  | .local _ .vmem, ⟨4, _⟩ => ⟨S1x1024x512, .f32⟩
  | .local _ .vmem, ⟨5, _⟩ => ⟨S1x1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  inb_S1x2048x512_S1x2048x512_0_0_0 : ∀ a, (![0, 0, 0] : Fin 3 → Nat) a + S1x2048x512.size a ≤ S1x2048x512.size a
  h_S1x2048x512 : 0 < S1x2048x512.numel
  bitsLt_bf16_f32 : FTy.bits .bf16 < FTy.bits .f32
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  broadcasts_S1x1024x1_S1x1024x512 : S1x1024x1.Broadcasts S1x1024x512
  dot_S1x1024x512_S1x2048x512_S1x1024x2048_2_2_1_1_0_0_wf : DotDims.WF S1x1024x512 S1x2048x512 S1x1024x2048 [2] [2] [1] [1] [0] [0]
  dot_S1x1024x2048_S1x2048x512_S1x1024x512_2_1_1_2_0_0_wf : DotDims.WF S1x1024x2048 S1x2048x512 S1x1024x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x2048x512.size a
  hwx0_0 : ∀ i : grid0.Coords, EltTy.bits .f32 = 32 ∨ (Rect.block (s := S8x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x512.size a
  hwx0_2 : ∀ i : grid0.Coords, EltTy.bits .f32 = 32 ∨ (Rect.block (s := S8x2048x512) S1x1024x512.size (cc0_transform_2 i) (hinb0_2 i)).WholeWords (EltTy.packing .f32)

variable [Facts₀]

def dot_S1x1024x512_S1x2048x512_S1x1024x2048_2_2_1_1_0_0 : DotDims S1x1024x512 S1x2048x512 S1x1024x2048 where
  lhsContracting := [2]
  rhsContracting := [2]
  lhsNonContracting := [1]
  rhsNonContracting := [1]
  lhsBatch := [0]
  rhsBatch := [0]
  wf := dot_S1x1024x512_S1x2048x512_S1x1024x2048_2_2_1_1_0_0_wf
def dot_S1x1024x2048_S1x2048x512_S1x1024x512_2_1_1_2_0_0 : DotDims S1x1024x2048 S1x2048x512 S1x1024x512 where
  lhsContracting := [2]
  rhsContracting := [1]
  lhsNonContracting := [1]
  rhsNonContracting := [2]
  lhsBatch := [0]
  rhsBatch := [0]
  wf := dot_S1x1024x2048_S1x2048x512_S1x1024x512_2_1_1_2_0_0_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x512, .f32⟩
  | .hbm, ⟨17, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KernelBody.lean ====
/-
  The run of the attention kernel's program, for any float values `F`.

  The program is one pallas_call on a grid of 8 × 2 points. The argument array x : f32[8, 2048, 512] is handed to the
  kernel TWICE: window 0 stages the query tile x[b, 1024·j .. 1024·j + 1023, :] at point (b, j), window 1 the whole
  batch x[b, :, :] (keys and values), and window 2 writes the output tile back to the result array. Because two input
  windows read ONE array, the array's points-to is dealt between them: window 0 holds its left half-share, window 1
  its right half-share (`arrays_of_bufs`); an input is only read, so half a share is enough for each.

  The body at a point loads both input blocks whole, computes one value (`k0_pay1`, the skeleton's payload) and stores
  it over the whole output block (`tile_triple`). So after point t the output staging buffer holds `tileOut` of the
  two input blocks at t, and the inputs' buffers hold their blocks (`dats`). The launch, the pipeline's transfers and
  adequacy are the library's (`θ_run_region_noSem_shared`): every weakly fair execution terminates, without a fault,
  with each window's array at what the write-backs computed (`run_arrays`).
-/
import proofs.«173736_j6270652252306_2_alg».proof.Proof.Gen.Kernel.Launch
import proofs.«173736_j6270652252306_2_alg».proof.Proof.Gen.Kernel.Skeleton
import proofs.«173736_j6270652252306_2_alg».proof.Proof.Gen.Kernel.Points
import Idealize.ShloMosaic.Lib.Pipeline.FrameBody
import Idealize.ShloMosaic.Lib.Pipeline.Launch
import Idealize.ShloMosaic.Lib.Pipeline.Kit
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

/-- The whole query / output tile and the whole key-value block, as the rectangles the body's accesses name. -/
abbrev rq : Rect S1x1024x512 := Rect.unit (s := S1x1024x512) ![0, 0, 0] S1x1024x512.size inb_S1x1024x512_S1x1024x512_0_0_0
abbrev rkv : Rect S1x2048x512 := Rect.unit (s := S1x2048x512) ![0, 0, 0] S1x2048x512.size inb_S1x2048x512_S1x2048x512_0_0_0

/-- What the output tile's buffer holds after the body, from the two input blocks: its one store, over the whole tile. -/
def tileOut (x0 : Vec F S1x1024x512 .f32) (x1 : Vec F S1x2048x512 .f32) : Vec F S1x1024x512 .f32 :=
  View.canon [⟨rq, k0_pay1 (View.ld x0 rq) (View.ld x1 rkv)⟩]

/-- The one store covers the tile. -/
theorem tile_cover (p0 : Vec F S1x1024x512 .f32) (y : S1x1024x512.Idx) :
    ∃ pc ∈ ([⟨rq, p0⟩] : List (View.Piece (Elt F) S1x1024x512 .f32)), y ∈ pc.1.set :=
  View.cover_of_tiled [⟨rq, p0⟩] S1x1024x512.size (by rfl) y

set_option maxHeartbeats 1000000 in
/-- The body on whole staging memrefs — the inputs' at contents `x0`, `x1`, the output's at anything — runs to the
    continuation with the inputs' as they were and the output's at `tileOut x0 x1`. -/
theorem tile_triple (c : Dev nD) (E : Set ℕ) (i : grid0.Coords)
    (arg2 : Memref sig .tc .vmem S1x1024x512 .f32) (harg2 : arg2.IsWhole)
    (arg3 : Memref sig .tc .vmem S1x2048x512 .f32) (harg3 : arg3.IsWhole)
    (arg4 : Memref sig .tc .vmem S1x1024x512 .f32) (harg4 : arg4.IsWhole)
    (x0 : Vec F S1x1024x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__self_attn_kernel i arg2 harg2 arg3 harg3 arg4 harg4) K := by
  simp only [cc0__self_attn_kernel_eq_skeleton]; unfold cc0__self_attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The proof data of the pipeline on core `c`: the arrays as the region finds them; after the body at point `t` each
    input's buffer at its block and the output's at `tileOut` of the input blocks; nothing carried between points;
    the argument array's share dealt left / right between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_o (c : Dev nD) (t : Fin cfg0.N) : (dats m 0 c).after 2 t = tileOut (iblk m c 0 t) (iblk m c 1 t) := by dsimp only [dats]

/-- Each input's current staging buffer holds its block at every point, fetched there or not: the key-value block is
    fetched only when the batch changes, and at the other points its index has not moved. -/
theorem before_q (c : Dev nD) (t : Fin cfg0.N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; try rfl) t d).trans
    (by unfold Dat.fetched Dat.blockOf iblk; rw [A_eq]; try rfl)
theorem before_kv (c : Dev nD) (t : Fin cfg0.N) (d) : (dats m 0 c).before 1 t d = iblk m c 1 t :=
  ((dats m 0 c).before_in_eq_fetched 1 rfl (fun _ => rfl) (fun _ _ _ => rfl)
    (fun t => by rw [after_kv]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `tile_triple` applies; the core's `owes` passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).Φ t.succ = (dats m 0 c).Φ t.castSucc from rfl,
    show (dats m 0 c).owesAt () t.succ = (dats m 0 c).owesAt () t.castSucc from rfl,
    after_q, after_kv, after_o]
  iintro ⟨HΦ, Ho, ⟨%d0, H0⟩, ⟨%d1, H1⟩, ⟨%d2, H2⟩⟩
  iapply (tile_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Attn

end
-- ==== Proof.KernelRun.lean ====
/-
  The launch of the attention kernel's program on the shared argument array, and what the run leaves in memory.
-/
import proofs.«173736_j6270652252306_2_alg».proof.Proof.KernelBody

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The two buffers behind the three windows' arrays, each whole at the full share, make the windows' arrays at
    their shares: the argument array's full share is its left half (the query window's) and its right half (the
    key-value window's); the result array is the output window's, whole. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show Finset.univ.image (Pipeline.arrRef spec0) = insert main_arg0 {main_v0} from by decide,
    bigSep_insert (by decide), bigSep_singleton, bigSep_W0,
    (arr_whole0 0).set_eq_univ, (arr_whole0 2).set_eq_univ]
  show _ ⊢ iprop(((c.tc : Thread nD τ).loc main_arg0 ↦{fullShare.left} V m c main_arg0)
      ∗ ((c.tc : Thread nD τ).loc main_arg0 ↦{fullShare.right} V m c main_arg0)
      ∗ ((c.tc : Thread nD τ).loc main_v0 ↦{fullShare} V m c main_v0))
  refine (sep_mono (pointsTo_share (PosShare.mem_left_op_right fullShare)).1 .rfl).trans ?_
  iintro ⟨⟨Hl, Hr⟩, Ho⟩
  isplitl [Hl]; · iexact Hl
  isplitl [Hr]; · iexact Hr
  iexact Ho

/-! ## The run -/

/-- Every window's array holds, at the end, what the write-backs computed. -/
def ArraysPost : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- For any float values, from any memory with zero counters: every weakly fair execution of the program terminates,
    without a fault, with every window's array at what the library computes from the proof data. The launch is the
    library's for windows that share an array; nothing but the windows' arrays is the kernel's. -/
theorem run_arrays : θ_run defs (onTc (τ := τ) (main (F := F))) ⟨m, fun _ => 0, ρ⟩ (ArraysPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument array is an input of both windows that read it: it ends as launched. -/
theorem arg_kept (c : Dev nD) : (dats m 0 c).arrAt 0 cfg0.N = m ((c.tc : Thread nD τ).loc main_arg0) :=
  ((dats m 0 c).arrAt_in 0 rfl _).trans (A_eq m c 0)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (arg_kept m c)) (run_arrays m ρ)

/-- The run with the result array named: what the output window's write-backs leave, the argument unchanged. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, (h c 0).trans (arg_kept m c)⟩) (run_arrays m ρ)

end Cert.Kernel.Attn

end
-- ==== Proof.KernelIdealBody.lean ====
/-
  The run of the attention kernel's program, for any float values `F`.

  The program is one pallas_call on a grid of 8 × 2 points. The argument array x : f32[8, 2048, 512] is handed to the
  kernel TWICE: window 0 stages the query tile x[b, 1024·j .. 1024·j + 1023, :] at point (b, j), window 1 the whole
  batch x[b, :, :] (keys and values), and window 2 writes the output tile back to the result array. Because two input
  windows read ONE array, the array's points-to is dealt between them: window 0 holds its left half-share, window 1
  its right half-share (`arrays_of_bufs`); an input is only read, so half a share is enough for each.

  The body at a point loads both input blocks whole, computes one value (`k0_pay1`, the skeleton's payload) and stores
  it over the whole output block (`tile_triple`). So after point t the output staging buffer holds `tileOut` of the
  two input blocks at t, and the inputs' buffers hold their blocks (`dats`). The launch, the pipeline's transfers and
  adequacy are the library's (`θ_run_region_noSem_shared`): every weakly fair execution terminates, without a fault,
  with each window's array at what the write-backs computed (`run_arrays`).
-/
import proofs.«173736_j6270652252306_2_alg».proof.Proof.Gen.KernelIdeal.Launch
import proofs.«173736_j6270652252306_2_alg».proof.Proof.Gen.KernelIdeal.Skeleton
import proofs.«173736_j6270652252306_2_alg».proof.Proof.Gen.KernelIdeal.Points
import Idealize.ShloMosaic.Lib.Pipeline.FrameBody
import Idealize.ShloMosaic.Lib.Pipeline.Launch
import Idealize.ShloMosaic.Lib.Pipeline.Kit
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

/-- The whole query / output tile and the whole key-value block, as the rectangles the body's accesses name. -/
abbrev rq : Rect S1x1024x512 := Rect.unit (s := S1x1024x512) ![0, 0, 0] S1x1024x512.size inb_S1x1024x512_S1x1024x512_0_0_0
abbrev rkv : Rect S1x2048x512 := Rect.unit (s := S1x2048x512) ![0, 0, 0] S1x2048x512.size inb_S1x2048x512_S1x2048x512_0_0_0

/-- What the output tile's buffer holds after the body, from the two input blocks: its one store, over the whole tile. -/
def tileOut (x0 : Vec F S1x1024x512 .f32) (x1 : Vec F S1x2048x512 .f32) : Vec F S1x1024x512 .f32 :=
  View.canon [⟨rq, k0_pay1 (View.ld x0 rq) (View.ld x1 rkv)⟩]

/-- The one store covers the tile. -/
theorem tile_cover (p0 : Vec F S1x1024x512 .f32) (y : S1x1024x512.Idx) :
    ∃ pc ∈ ([⟨rq, p0⟩] : List (View.Piece (Elt F) S1x1024x512 .f32)), y ∈ pc.1.set :=
  View.cover_of_tiled [⟨rq, p0⟩] S1x1024x512.size (by rfl) y

set_option maxHeartbeats 1000000 in
/-- The body on whole staging memrefs — the inputs' at contents `x0`, `x1`, the output's at anything — runs to the
    continuation with the inputs' as they were and the output's at `tileOut x0 x1`. -/
theorem tile_triple (c : Dev nD) (E : Set ℕ) (i : grid0.Coords)
    (arg2 : Memref sig .tc .vmem S1x1024x512 .f32) (harg2 : arg2.IsWhole)
    (arg3 : Memref sig .tc .vmem S1x2048x512 .f32) (harg3 : arg3.IsWhole)
    (arg4 : Memref sig .tc .vmem S1x1024x512 .f32) (harg4 : arg4.IsWhole)
    (x0 : Vec F S1x1024x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__self_attn_kernel i arg2 harg2 arg3 harg3 arg4 harg4) K := by
  simp only [cc0__self_attn_kernel_eq_skeleton]; unfold cc0__self_attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The proof data of the pipeline on core `c`: the arrays as the region finds them; after the body at point `t` each
    input's buffer at its block and the output's at `tileOut` of the input blocks; nothing carried between points;
    the argument array's share dealt left / right between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_o (c : Dev nD) (t : Fin cfg0.N) : (dats m 0 c).after 2 t = tileOut (iblk m c 0 t) (iblk m c 1 t) := by dsimp only [dats]

/-- Each input's current staging buffer holds its block at every point, fetched there or not: the key-value block is
    fetched only when the batch changes, and at the other points its index has not moved. -/
theorem before_q (c : Dev nD) (t : Fin cfg0.N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; try rfl) t d).trans
    (by unfold Dat.fetched Dat.blockOf iblk; rw [A_eq]; try rfl)
theorem before_kv (c : Dev nD) (t : Fin cfg0.N) (d) : (dats m 0 c).before 1 t d = iblk m c 1 t :=
  ((dats m 0 c).before_in_eq_fetched 1 rfl (fun _ => rfl) (fun _ _ _ => rfl)
    (fun t => by rw [after_kv]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `tile_triple` applies; the core's `owes` passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).Φ t.succ = (dats m 0 c).Φ t.castSucc from rfl,
    show (dats m 0 c).owesAt () t.succ = (dats m 0 c).owesAt () t.castSucc from rfl,
    after_q, after_kv, after_o]
  iintro ⟨HΦ, Ho, ⟨%d0, H0⟩, ⟨%d1, H1⟩, ⟨%d2, H2⟩⟩
  iapply (tile_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Attn

end
-- ==== Proof.KernelIdealRun.lean ====
/-
  The launch of the attention kernel's program on the shared argument array, and what the run leaves in memory.
-/
import proofs.«173736_j6270652252306_2_alg».proof.Proof.KernelIdealBody

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The two buffers behind the three windows' arrays, each whole at the full share, make the windows' arrays at
    their shares: the argument array's full share is its left half (the query window's) and its right half (the
    key-value window's); the result array is the output window's, whole. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show Finset.univ.image (Pipeline.arrRef spec0) = insert main_arg0 {main_v0} from by decide,
    bigSep_insert (by decide), bigSep_singleton, bigSep_W0,
    (arr_whole0 0).set_eq_univ, (arr_whole0 2).set_eq_univ]
  show _ ⊢ iprop(((c.tc : Thread nD τ).loc main_arg0 ↦{fullShare.left} V m c main_arg0)
      ∗ ((c.tc : Thread nD τ).loc main_arg0 ↦{fullShare.right} V m c main_arg0)
      ∗ ((c.tc : Thread nD τ).loc main_v0 ↦{fullShare} V m c main_v0))
  refine (sep_mono (pointsTo_share (PosShare.mem_left_op_right fullShare)).1 .rfl).trans ?_
  iintro ⟨⟨Hl, Hr⟩, Ho⟩
  isplitl [Hl]; · iexact Hl
  isplitl [Hr]; · iexact Hr
  iexact Ho

/-! ## The run -/

/-- Every window's array holds, at the end, what the write-backs computed. -/
def ArraysPost : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- For any float values, from any memory with zero counters: every weakly fair execution of the program terminates,
    without a fault, with every window's array at what the library computes from the proof data. The launch is the
    library's for windows that share an array; nothing but the windows' arrays is the kernel's. -/
theorem run_arrays : θ_run defs (onTc (τ := τ) (main (F := F))) ⟨m, fun _ => 0, ρ⟩ (ArraysPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument array is an input of both windows that read it: it ends as launched. -/
theorem arg_kept (c : Dev nD) : (dats m 0 c).arrAt 0 cfg0.N = m ((c.tc : Thread nD τ).loc main_arg0) :=
  ((dats m 0 c).arrAt_in 0 rfl _).trans (A_eq m c 0)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (arg_kept m c)) (run_arrays m ρ)

/-- The run with the result array named: what the output window's write-backs leave, the argument unchanged. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, (h c 0).trans (arg_kept m c)⟩) (run_arrays m ρ)

end Cert.KernelIdeal.Attn

end
-- ==== Proof.LibSoftmaxRow.lean ====
/-
  One row of single-pass softmax attention on the extended reals, in its two arrangements.

  For a query row `a`, keys and values `K` (one matrix serves as both), the scores are s m = ∑ k, a k · K m k, the
  weights w m = exp (s m − max s), the normaliser l = ∑ m, w m. One arrangement divides the weighted sum of the values
  by l (`rowDivAfter`); the other divides every weight by l before the weighted sum (`rowDivBefore`); both then
  multiply by the query's own entry. On the extended reals the two differ at infinities (a product does not
  distribute over a sum there), so they are equated on REAL inputs: then every score is real, the maximum of a
  non-empty finite family of reals is one of them, every weight is a positive real, and l is a positive real, so
  dividing by l is multiplying by the real 1/l, which moves across a finite sum of reals.
-/
import Idealize.ShloMosaic.PureOps.Ideal
import Idealize.ShloMosaic.PureOps.Ideal.Laws

noncomputable section

namespace Cert.SoftmaxRow

open Idealize.ShloMosaic

variable {ι κ : Type} [Fintype ι] [Fintype κ]

/-- The coercion of reals into the extended reals commutes with finite sums. -/
theorem coe_sum {α : Type} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The scores of a query row against every key. -/
def score (a : κ → EReal) (K : ι → κ → EReal) (m : ι) : EReal := ∑ k, a k * K m k

/-- The maximum of a row, from −∞. -/
def rowMax (f : ι → EReal) : EReal := Finset.univ.fold max ⊥ f

/-- The unnormalised softmax weights. -/
def weight (a : κ → EReal) (K : ι → κ → EReal) (m : ι) : EReal := Ideal.exp (score a K m - rowMax (score a K))

/-- The weighted sum of the values divided by the normaliser, times the query's entry. -/
def rowDivAfter (a : κ → EReal) (K : ι → κ → EReal) (d : κ) : EReal :=
  Ideal.div (∑ m, weight a K m * K m d) (∑ m, weight a K m) * a d

/-- Every weight divided by the normaliser, then the weighted sum of the values, times the query's entry. -/
def rowDivBefore (a : κ → EReal) (K : ι → κ → EReal) (d : κ) : EReal :=
  (∑ m, Ideal.div (weight a K m) (∑ m', weight a K m') * K m d) * a d

/-- The maximum of a non-empty finite family of reals is a real. -/
theorem rowMax_real [Nonempty ι] (g : ι → ℝ) : ∃ r : ℝ, rowMax (fun m => (g m : EReal)) = r := by
  obtain ⟨i, -, hi⟩ := Finset.exists_mem_eq_sup (Finset.univ : Finset ι) Finset.univ_nonempty (fun m => (g m : EReal))
  exact ⟨g i, hi⟩

/-- On real inputs the two arrangements agree. -/
theorem rowDivBefore_eq_rowDivAfter [Nonempty ι] (a : κ → EReal) (K : ι → κ → EReal)
    (ha : ∀ k, ∃ r : ℝ, a k = r) (hK : ∀ m k, ∃ r : ℝ, K m k = r) (d : κ) :
    rowDivBefore a K d = rowDivAfter a K d := by
  choose ra hra using ha
  choose rK hrK using hK
  -- the scores are real
  have hs : ∀ m, score a K m = ((∑ k, ra k * rK m k : ℝ) : EReal) := fun m => by
    unfold score; rw [coe_sum]
    exact Finset.sum_congr rfl fun k _ => by rw [hra, hrK, EReal.coe_mul]
  -- so is their maximum
  obtain ⟨mx, hmx⟩ := rowMax_real (ι := ι) (fun m => ∑ k, ra k * rK m k)
  have hmx' : rowMax (score a K) = mx := by rw [← hmx]; exact congrArg rowMax (funext hs)
  -- the weights are positive reals
  have hw : ∀ m, weight a K m = ((Real.exp ((∑ k, ra k * rK m k) - mx) : ℝ) : EReal) := fun m => by
    unfold weight; rw [hmx', hs, ← EReal.coe_sub, Ideal.exp_coe]
  -- and so is the normaliser
  set W : ι → ℝ := fun m => Real.exp ((∑ k, ra k * rK m k) - mx) with hW
  have hl : (∑ m, weight a K m) = ((∑ m, W m : ℝ) : EReal) := by
    rw [coe_sum]; exact Finset.sum_congr rfl fun m _ => hw m
  have hpos : (0 : ℝ) < ∑ m, W m := Finset.sum_pos (fun m _ => Real.exp_pos _) Finset.univ_nonempty
  have hne : (∑ m, W m : ℝ) ≠ 0 := ne_of_gt hpos
  unfold rowDivBefore rowDivAfter
  rw [hl, Ideal.div_coe hne]
  congr 1
  have e1 : ∀ m, Ideal.div (weight a K m) ((∑ m, W m : ℝ) : EReal) * K m d = ((W m * (1 / ∑ m, W m) * rK m d : ℝ) : EReal) := fun m => by
    rw [Ideal.div_coe hne, hw, hrK, ← EReal.coe_mul, ← EReal.coe_mul]
  have e2 : ∀ m, weight a K m * K m d = ((W m * rK m d : ℝ) : EReal) := fun m => by
    rw [hw, hrK, ← EReal.coe_mul]
  rw [Finset.sum_congr rfl fun m _ => e1 m, Finset.sum_congr rfl fun m _ => e2 m, ← coe_sum, ← coe_sum, ← EReal.coe_mul]
  congr 1
  rw [Finset.sum_mul]
  exact Finset.sum_congr rfl fun m _ => by ring

end Cert.SoftmaxRow

end
-- ==== Proof.KernelPayload.lean ====
/-
  The attention kernel's stored value at one entry of its output tile.

  At a grid point the body holds a query tile q : [1, 1024, 512] and the whole batch kv : [1, 2048, 512] (keys and values).
  Row n of the tile and column d: the scores s m = ∑ k, q[n,k] · kv[m,k] (a matrix product into a zero accumulator; the
  change of float format before it is the identity on the extended reals), their maximum over m from −∞, the weights
  exp (s m − max), the normaliser ∑ m, weight m (a sum from zero), the weighted sum ∑ m, weight m · kv[m,d] (a second
  matrix product into zero) divided by the normaliser and multiplied by q[n,d]. That is `rowDivAfter` of row n of q
  and of kv. The column vectors of maxima and normalisers reach the row through a cast [1,1024] → [1,1024,1] and a
  broadcast along the last axis, each read at an index here.
-/
import proofs.«173736_j6270652252306_2_alg».proof.Proof.Gen.KernelIdeal.Skeleton
import proofs.«173736_j6270652252306_2_alg».proof.Proof.LibSoftmaxRow
import Idealize.ShloMosaic.Lib.Pipeline.Value
import Idealize.ShloMosaic.Lib.ValueIdx
import Idealize.ShloMosaic.PureOps.Ideal.Laws

set_option maxRecDepth 16384

noncomputable section

namespace Cert.KernelIdeal.Attn

open Cert.KernelIdeal Cert.KernelIdeal.Gen
open Idealize.ShloMosaic Idealize.ShloMosaic.ValueIdx Cert.SoftmaxRow

/-! ## The two matrix products at an index -/

/-- The operands' indices of the score product, coordinate by coordinate. -/

theorem qk_lhs_0 (i : S1x1024x2048.Idx) (q : dot_S1x1024x512_S1x2048x512_S1x1024x2048_2_2_1_1_0_0.contr.Idx) : (dot_S1x1024x512_S1x2048x512_S1x1024x2048_2_2_1_1_0_0.lhsIdx i q 0).val = (i 0).val := by
  unfold DotDims.lhsIdx
  rw [dif_pos (show (0 : Fin S1x1024x512.rank) ∈ dot_S1x1024x512_S1x2048x512_S1x1024x2048_2_2_1_1_0_0.lhsBatch by decide)]
  rfl
theorem qk_lhs_1 (i : S1x1024x2048.Idx) (q : dot_S1x1024x512_S1x2048x512_S1x1024x2048_2_2_1_1_0_0.contr.Idx) : (dot_S1x1024x512_S1x2048x512_S1x1024x2048_2_2_1_1_0_0.lhsIdx i q 1).val = (i 1).val := by
  unfold DotDims.lhsIdx
  rw [dif_neg (show ¬(1 : Fin S1x1024x512.rank) ∈ dot_S1x1024x512_S1x2048x512_S1x1024x2048_2_2_1_1_0_0.lhsBatch by decide), dif_pos (show (1 : Fin S1x1024x512.rank) ∈ dot_S1x1024x512_S1x2048x512_S1x1024x2048_2_2_1_1_0_0.lhsNonContracting by decide)]
  rfl
theorem qk_lhs_2 (i : S1x1024x2048.Idx) (q : dot_S1x1024x512_S1x2048x512_S1x1024x2048_2_2_1_1_0_0.contr.Idx) : (dot_S1x1024x512_S1x2048x512_S1x1024x2048_2_2_1_1_0_0.lhsIdx i q 2).val = (q ⟨0, by decide⟩).val :=
  dot_S1x1024x512_S1x2048x512_S1x1024x2048_2_2_1_1_0_0.lhsIdx_val_of_single rfl i q
theorem qk_rhs_0 (i : S1x1024x2048.Idx) (q : dot_S1x1024x512_S1x2048x512_S1x1024x2048_2_2_1_1_0_0.contr.Idx) : (dot_S1x1024x512_S1x2048x512_S1x1024x2048_2_2_1_1_0_0.rhsIdx i q 0).val = (i 0).val := by
  unfold DotDims.rhsIdx
  rw [dif_pos (show (0 : Fin S1x2048x512.rank) ∈ dot_S1x1024x512_S1x2048x512_S1x1024x2048_2_2_1_1_0_0.rhsBatch by decide)]
  rfl
theorem qk_rhs_1 (i : S1x1024x2048.Idx) (q : dot_S1x1024x512_S1x2048x512_S1x1024x2048_2_2_1_1_0_0.contr.Idx) : (dot_S1x1024x512_S1x2048x512_S1x1024x2048_2_2_1_1_0_0.rhsIdx i q 1).val = (i 2).val := by
  unfold DotDims.rhsIdx
  rw [dif_neg (show ¬(1 : Fin S1x2048x512.rank) ∈ dot_S1x1024x512_S1x2048x512_S1x1024x2048_2_2_1_1_0_0.rhsBatch by decide), dif_pos (show (1 : Fin S1x2048x512.rank) ∈ dot_S1x1024x512_S1x2048x512_S1x1024x2048_2_2_1_1_0_0.rhsNonContracting by decide)]
  rfl
theorem qk_rhs_2 (i : S1x1024x2048.Idx) (q : dot_S1x1024x512_S1x2048x512_S1x1024x2048_2_2_1_1_0_0.contr.Idx) : (dot_S1x1024x512_S1x2048x512_S1x1024x2048_2_2_1_1_0_0.rhsIdx i q 2).val = (q ⟨0, by decide⟩).val :=
  dot_S1x1024x512_S1x2048x512_S1x1024x2048_2_2_1_1_0_0.rhsIdx_val_of_single rfl i q

/-- Query row n against key row m: the sum over the 512 features. -/
theorem scores_apply (a : FVec Ideal S1x1024x512 .bf16) (b : FVec Ideal S1x2048x512 .bf16) (n : Fin 1024) (m : Fin 2048) :
    FloatOps.matmul dot_S1x1024x512_S1x2048x512_S1x1024x2048_2_2_1_1_0_0 none a b (constant S1x1024x2048 .f32 0x00000000#32) (ix3 0 n m)
      = ∑ k : Fin 512, a (ix3 0 n k) * b (ix3 0 m k) := by
  rw [Ideal.matmul_constant_zero_apply, ← Equiv.sum_comp (contrEquiv1 dot_S1x1024x512_S1x2048x512_S1x1024x2048_2_2_1_1_0_0 512 rfl rfl).symm]
  refine Finset.sum_congr rfl fun k _ => ?_
  have hk := contrEquiv1_symm_val dot_S1x1024x512_S1x2048x512_S1x1024x2048_2_2_1_1_0_0 512 rfl rfl k
  have el : dot_S1x1024x512_S1x2048x512_S1x1024x2048_2_2_1_1_0_0.lhsIdx (ix3 0 n m) ((contrEquiv1 dot_S1x1024x512_S1x2048x512_S1x1024x2048_2_2_1_1_0_0 512 rfl rfl).symm k) = ix3 0 n k := funext fun c => Fin.ext (by
    match c with
    | ⟨0, _⟩ => exact qk_lhs_0 _ _
    | ⟨1, _⟩ => exact qk_lhs_1 _ _
    | ⟨2, _⟩ => exact (qk_lhs_2 _ _).trans hk)
  have er : dot_S1x1024x512_S1x2048x512_S1x1024x2048_2_2_1_1_0_0.rhsIdx (ix3 0 n m) ((contrEquiv1 dot_S1x1024x512_S1x2048x512_S1x1024x2048_2_2_1_1_0_0 512 rfl rfl).symm k) = ix3 0 m k := funext fun c => Fin.ext (by
    match c with
    | ⟨0, _⟩ => exact qk_rhs_0 _ _
    | ⟨1, _⟩ => exact qk_rhs_1 _ _
    | ⟨2, _⟩ => exact (qk_rhs_2 _ _).trans hk)
  rw [el, er]

/-- The operands' indices of the weighted sum, coordinate by coordinate. -/

theorem pv_lhs_0 (i : S1x1024x512.Idx) (q : dot_S1x1024x2048_S1x2048x512_S1x1024x512_2_1_1_2_0_0.contr.Idx) : (dot_S1x1024x2048_S1x2048x512_S1x1024x512_2_1_1_2_0_0.lhsIdx i q 0).val = (i 0).val := by
  unfold DotDims.lhsIdx
  rw [dif_pos (show (0 : Fin S1x1024x2048.rank) ∈ dot_S1x1024x2048_S1x2048x512_S1x1024x512_2_1_1_2_0_0.lhsBatch by decide)]
  rfl
theorem pv_lhs_1 (i : S1x1024x512.Idx) (q : dot_S1x1024x2048_S1x2048x512_S1x1024x512_2_1_1_2_0_0.contr.Idx) : (dot_S1x1024x2048_S1x2048x512_S1x1024x512_2_1_1_2_0_0.lhsIdx i q 1).val = (i 1).val := by
  unfold DotDims.lhsIdx
  rw [dif_neg (show ¬(1 : Fin S1x1024x2048.rank) ∈ dot_S1x1024x2048_S1x2048x512_S1x1024x512_2_1_1_2_0_0.lhsBatch by decide), dif_pos (show (1 : Fin S1x1024x2048.rank) ∈ dot_S1x1024x2048_S1x2048x512_S1x1024x512_2_1_1_2_0_0.lhsNonContracting by decide)]
  rfl
theorem pv_lhs_2 (i : S1x1024x512.Idx) (q : dot_S1x1024x2048_S1x2048x512_S1x1024x512_2_1_1_2_0_0.contr.Idx) : (dot_S1x1024x2048_S1x2048x512_S1x1024x512_2_1_1_2_0_0.lhsIdx i q 2).val = (q ⟨0, by decide⟩).val :=
  dot_S1x1024x2048_S1x2048x512_S1x1024x512_2_1_1_2_0_0.lhsIdx_val_of_single rfl i q
theorem pv_rhs_0 (i : S1x1024x512.Idx) (q : dot_S1x1024x2048_S1x2048x512_S1x1024x512_2_1_1_2_0_0.contr.Idx) : (dot_S1x1024x2048_S1x2048x512_S1x1024x512_2_1_1_2_0_0.rhsIdx i q 0).val = (i 0).val := by
  unfold DotDims.rhsIdx
  rw [dif_pos (show (0 : Fin S1x2048x512.rank) ∈ dot_S1x1024x2048_S1x2048x512_S1x1024x512_2_1_1_2_0_0.rhsBatch by decide)]
  rfl
theorem pv_rhs_2 (i : S1x1024x512.Idx) (q : dot_S1x1024x2048_S1x2048x512_S1x1024x512_2_1_1_2_0_0.contr.Idx) : (dot_S1x1024x2048_S1x2048x512_S1x1024x512_2_1_1_2_0_0.rhsIdx i q 2).val = (i 2).val := by
  unfold DotDims.rhsIdx
  rw [dif_neg (show ¬(2 : Fin S1x2048x512.rank) ∈ dot_S1x1024x2048_S1x2048x512_S1x1024x512_2_1_1_2_0_0.rhsBatch by decide), dif_pos (show (2 : Fin S1x2048x512.rank) ∈ dot_S1x1024x2048_S1x2048x512_S1x1024x512_2_1_1_2_0_0.rhsNonContracting by decide)]
  rfl
theorem pv_rhs_1 (i : S1x1024x512.Idx) (q : dot_S1x1024x2048_S1x2048x512_S1x1024x512_2_1_1_2_0_0.contr.Idx) : (dot_S1x1024x2048_S1x2048x512_S1x1024x512_2_1_1_2_0_0.rhsIdx i q 1).val = (q ⟨0, by decide⟩).val :=
  dot_S1x1024x2048_S1x2048x512_S1x1024x512_2_1_1_2_0_0.rhsIdx_val_of_single rfl i q

/-- Weight row n against value column d: the sum over the 2048 keys. -/
theorem weighted_apply (p : FVec Ideal S1x1024x2048 .bf16) (b : FVec Ideal S1x2048x512 .bf16) (n : Fin 1024) (d : Fin 512) :
    FloatOps.matmul dot_S1x1024x2048_S1x2048x512_S1x1024x512_2_1_1_2_0_0 none p b (constant S1x1024x512 .f32 0x00000000#32) (ix3 0 n d)
      = ∑ m : Fin 2048, p (ix3 0 n m) * b (ix3 0 m d) := by
  rw [Ideal.matmul_constant_zero_apply, ← Equiv.sum_comp (contrEquiv1 dot_S1x1024x2048_S1x2048x512_S1x1024x512_2_1_1_2_0_0 2048 rfl rfl).symm]
  refine Finset.sum_congr rfl fun k _ => ?_
  have hk := contrEquiv1_symm_val dot_S1x1024x2048_S1x2048x512_S1x1024x512_2_1_1_2_0_0 2048 rfl rfl k
  have el : dot_S1x1024x2048_S1x2048x512_S1x1024x512_2_1_1_2_0_0.lhsIdx (ix3 0 n d) ((contrEquiv1 dot_S1x1024x2048_S1x2048x512_S1x1024x512_2_1_1_2_0_0 2048 rfl rfl).symm k) = ix3 0 n k := funext fun c => Fin.ext (by
    match c with
    | ⟨0, _⟩ => exact pv_lhs_0 _ _
    | ⟨1, _⟩ => exact pv_lhs_1 _ _
    | ⟨2, _⟩ => exact (pv_lhs_2 _ _).trans hk)
  have er : dot_S1x1024x2048_S1x2048x512_S1x1024x512_2_1_1_2_0_0.rhsIdx (ix3 0 n d) ((contrEquiv1 dot_S1x1024x2048_S1x2048x512_S1x1024x512_2_1_1_2_0_0 2048 rfl rfl).symm k) = ix3 0 k d := funext fun c => Fin.ext (by
    match c with
    | ⟨0, _⟩ => exact pv_rhs_0 _ _
    | ⟨1, _⟩ => exact (pv_rhs_1 _ _).trans hk
    | ⟨2, _⟩ => exact pv_rhs_2 _ _)
  rw [el, er]

/-! ## The two reductions along a row -/

/-- Row n of a [1, 1024, 2048] vector with the key coordinate m put back. -/
theorem lift_row (h : S1x1024x2048.Reduces [2] S1x1024) (n : Fin 1024) (m : Fin 2048) :
    h.lift (ix2 0 n) m = ix3 0 n m := by
  funext c; apply Fin.ext
  match c with
  | ⟨0, _⟩ => rfl
  | ⟨1, _⟩ => rfl
  | ⟨2, _⟩ => rfl

/-- −∞ as a float pattern is the bottom of the extended reals. -/
theorem ofBits_neg_inf : Ideal.ofBits .f32 0xFF800000#32 = (⊥ : EReal) := by simp [Ideal.ofBits, Ideal.ieee]

/-- The maximum along the keys, from −∞. -/
theorem rowmax_apply (v : FVec Ideal S1x1024x2048 .f32) (h : S1x1024x2048.Reduces [2] S1x1024) (hφ : FKind.Formats .f32)
    (hacc : (0xFF800000#32 : BitVec 32) = FKind.maximumf.neutral .f32 hφ) (n : Fin 1024) :
    multiReduction .maximumf [2] S1x1024 v 0xFF800000#32 h hφ hacc (ix2 0 n) = rowMax (fun m : Fin 2048 => v (ix3 0 n m)) := by
  refine (Ideal.multiReduction_maximumf_single v _ h hφ hacc (ix2 0 n)).trans ?_
  unfold rowMax
  show Finset.fold max (Ideal.ofBits .f32 0xFF800000#32) (v ∘ h.lift (ix2 0 n)) (Finset.univ : Finset (Fin 2048)) = _
  rw [ofBits_neg_inf]
  exact congrArg (fun f => Finset.fold max (⊥ : EReal) f (Finset.univ : Finset (Fin 2048))) (funext fun m => congrArg v (lift_row h n m))

/-- The sum along the keys, from zero. -/
theorem rowsum_apply (v : FVec Ideal S1x1024x2048 .f32) (h : S1x1024x2048.Reduces [2] S1x1024) (hφ : FKind.Formats .f32)
    (hacc : (0x00000000#32 : BitVec 32) = FKind.add.neutral .f32 hφ) (n : Fin 1024) :
    multiReduction .add [2] S1x1024 v 0x00000000#32 h hφ hacc (ix2 0 n) = ∑ m : Fin 2048, v (ix3 0 n m) := by
  refine (Ideal.multiReduction_add_single v _ h hφ hacc (ix2 0 n)).trans ?_
  exact Finset.sum_congr rfl fun m _ => congrArg v (lift_row h n m)

/-! ## A column of per-row values spread along a row -/

variable {α : Type}

/-- Per-row values as a column: row n of the column is row n. -/
theorem column_apply (u : S1x1024.Idx → α) (h : S1x1024.ShapeCasts S1x1024x1) (n : Fin 1024) :
    shapeCast S1x1024x1 u h (ix3 0 n 0) = u (ix2 0 n) :=
  shapeCast_apply u h (ix3 0 n 0) (ix2 0 n) (by
    rw [Shape.rowMajor_val_two, Shape.rowMajor_val_three]
    show (0 : ℕ) * 1024 + n.val = ((0 : ℕ) * 1024 + n.val) * 1 + 0
    omega)

/-- The column spread over the 2048 keys. -/
theorem spread_keys_apply (u : S1x1024x1.Idx → α) (h : S1x1024x1.Broadcasts S1x1024x2048) (n : Fin 1024) (m : Fin 2048) :
    broadcastTo S1x1024x2048 u h (ix3 0 n m) = u (ix3 0 n 0) :=
  broadcastTo_apply u h (ix3 0 n m) (ix3 0 n 0) (fun a => match a with
    | ⟨0, _⟩ => rfl
    | ⟨1, _⟩ => rfl
    | ⟨2, _⟩ => rfl)

/-- The column spread over the 512 features. -/
theorem spread_feat_apply (u : S1x1024x1.Idx → α) (h : S1x1024x1.Broadcasts S1x1024x512) (n : Fin 1024) (d : Fin 512) :
    broadcastTo S1x1024x512 u h (ix3 0 n d) = u (ix3 0 n 0) :=
  broadcastTo_apply u h (ix3 0 n d) (ix3 0 n 0) (fun a => match a with
    | ⟨0, _⟩ => rfl
    | ⟨1, _⟩ => rfl
    | ⟨2, _⟩ => rfl)

/-! ## The stages of the body, and the stored value -/

/-- The scores of the tile's queries against every key. -/
def scoreVec (x0 : Vec Ideal S1x1024x512 .f32) (x1 : Vec Ideal S1x2048x512 .f32) : FVec Ideal S1x1024x2048 .f32 :=
  matmul dot_S1x1024x512_S1x2048x512_S1x1024x2048_2_2_1_1_0_0 none (truncf .bf16 x0 bitsLt_bf16_f32) (truncf .bf16 x1 bitsLt_bf16_f32) (constant S1x1024x2048 .f32 0x00000000#32)

/-- Each row's maximum score, spread along the row. -/
def maxVec (x0 : Vec Ideal S1x1024x512 .f32) (x1 : Vec Ideal S1x2048x512 .f32) : FVec Ideal S1x1024x2048 .f32 :=
  broadcastTo S1x1024x2048 (shapeCast S1x1024x1 (multiReduction .maximumf [2] S1x1024 (scoreVec x0 x1) 0xFF800000#32 reduces_S1x1024x2048_S1x1024 (.inl rfl) rfl) shapeCasts_S1x1024_S1x1024x1) broadcasts_S1x1024x1_S1x1024x2048

/-- The unnormalised weights. -/
def weightVec (x0 : Vec Ideal S1x1024x512 .f32) (x1 : Vec Ideal S1x2048x512 .f32) : FVec Ideal S1x1024x2048 .f32 :=
  exp (subf (scoreVec x0 x1) (maxVec x0 x1))

/-- Each row's normaliser, spread along the features. -/
def normVec (x0 : Vec Ideal S1x1024x512 .f32) (x1 : Vec Ideal S1x2048x512 .f32) : FVec Ideal S1x1024x512 .f32 :=
  broadcastTo S1x1024x512 (shapeCast S1x1024x1 (multiReduction .add [2] S1x1024 (weightVec x0 x1) 0x00000000#32 reduces_S1x1024x2048_S1x1024 (.inl rfl) rfl) shapeCasts_S1x1024_S1x1024x1) broadcasts_S1x1024x1_S1x1024x512

/-- The weighted sums of the values. -/
def mixVec (x0 : Vec Ideal S1x1024x512 .f32) (x1 : Vec Ideal S1x2048x512 .f32) : FVec Ideal S1x1024x512 .f32 :=
  matmul dot_S1x1024x2048_S1x2048x512_S1x1024x512_2_1_1_2_0_0 none (truncf .bf16 (weightVec x0 x1) bitsLt_bf16_f32) (truncf .bf16 x1 bitsLt_bf16_f32) (constant S1x1024x512 .f32 0x00000000#32)

/-- The stored value is the weighted sums over the normalisers, times the query tile. -/
theorem pay_eq (x0 : Vec Ideal S1x1024x512 .f32) (x1 : Vec Ideal S1x2048x512 .f32) :
    k0_pay1 (F := Ideal) x0 x1 = mulf (divf (mixVec x0 x1) (normVec x0 x1)) x0 := rfl

section Row
variable (x0 : Vec Ideal S1x1024x512 .f32) (x1 : Vec Ideal S1x2048x512 .f32) (n : Fin 1024)

/-- Row n of the query tile, and the keys (= values) of the batch. -/
abbrev qrow : Fin 512 → EReal := fun k => x0 (ix3 0 n k)
abbrev kvs : Fin 2048 → Fin 512 → EReal := fun m k => x1 (ix3 0 m k)

theorem scoreVec_apply (m : Fin 2048) : scoreVec x0 x1 (ix3 0 n m) = score (qrow x0 n) (kvs x1) m :=
  scores_apply _ _ n m

theorem maxVec_apply (m : Fin 2048) : maxVec x0 x1 (ix3 0 n m) = rowMax (score (qrow x0 n) (kvs x1)) := by
  unfold maxVec
  refine (spread_keys_apply _ _ n m).trans ((column_apply _ _ n).trans ((rowmax_apply _ _ _ _ n).trans ?_))
  exact congrArg rowMax (funext fun m' => scoreVec_apply x0 x1 n m')

theorem weightVec_apply (m : Fin 2048) : weightVec x0 x1 (ix3 0 n m) = weight (qrow x0 n) (kvs x1) m := by
  show Ideal.exp (scoreVec x0 x1 (ix3 0 n m) - maxVec x0 x1 (ix3 0 n m)) = _
  rw [scoreVec_apply, maxVec_apply]
  rfl

theorem normVec_apply (d : Fin 512) : normVec x0 x1 (ix3 0 n d) = ∑ m : Fin 2048, weight (qrow x0 n) (kvs x1) m := by
  unfold normVec
  refine (spread_feat_apply _ _ n d).trans ((column_apply _ _ n).trans ((rowsum_apply _ _ _ _ n).trans ?_))
  exact Finset.sum_congr rfl fun m _ => weightVec_apply x0 x1 n m

theorem mixVec_apply (d : Fin 512) : mixVec x0 x1 (ix3 0 n d) = ∑ m : Fin 2048, weight (qrow x0 n) (kvs x1) m * kvs x1 m d := by
  unfold mixVec
  refine (weighted_apply _ _ n d).trans ?_
  exact Finset.sum_congr rfl fun m _ => congrArg (· * kvs x1 m d) (weightVec_apply x0 x1 n m)

/-- The stored value at row n, column d: one row of single-pass softmax attention, divided after the weighted sum. -/
theorem pay_apply (d : Fin 512) : k0_pay1 (F := Ideal) x0 x1 (ix3 0 n d) = rowDivAfter (qrow x0 n) (kvs x1) d := by
  rw [pay_eq]
  show Ideal.div (mixVec x0 x1 (ix3 0 n d)) (normVec x0 x1 (ix3 0 n d)) * x0 (ix3 0 n d) = _
  rw [mixVec_apply, normVec_apply]
  rfl

end Row

end Cert.KernelIdeal.Attn

end
-- ==== Proof.AttnSpec.lean ====
/-
  Single-pass softmax self-attention over a batch, as one function of the input array, in its two arrangements.

  The input is x : [8, 2048, 512]. For batch b and query row n, the queries' row is x[b, n, :] and the keys and the
  values are both x[b, :, :]. Entry (b, n, d) of the result is one row of `Cert.SoftmaxRow`: the weighted sum of the
  values divided by the normaliser (`attnAfter`), or the weighted sum of the values with every weight divided by the
  normaliser first (`attnBefore`), in both cases times x[b, n, d]. On an input of real numbers the two agree.
-/
import proofs.«173736_j6270652252306_2_alg».proof.Proof.LibSoftmaxRow
import Idealize.ShloMosaic.Lib.ValueIdx

noncomputable section

namespace Cert.SoftmaxRow

open Idealize.ShloMosaic Idealize.ShloMosaic.ValueIdx

/-- The input's and the result's index type: (batch, row, feature). -/
abbrev Sx : Shape := ⟨3, ![8, 2048, 512]⟩

/-- Row n of batch b. -/
abbrev rowOf (x : Sx.Idx → EReal) (b : Fin 8) (n : Fin 2048) : Fin 512 → EReal := fun k => x (ix3 b n k)

/-- The rows of batch b: keys and values. -/
abbrev rowsOf (x : Sx.Idx → EReal) (b : Fin 8) : Fin 2048 → Fin 512 → EReal := fun m k => x (ix3 b m k)

/-- Attention with the division after the weighted sum. -/
def attnAfter (x : Sx.Idx → EReal) : Sx.Idx → EReal := fun i => rowDivAfter (rowOf x (i 0) (i 1)) (rowsOf x (i 0)) (i 2)

/-- Attention with every weight divided first. -/
def attnBefore (x : Sx.Idx → EReal) : Sx.Idx → EReal := fun i => rowDivBefore (rowOf x (i 0) (i 1)) (rowsOf x (i 0)) (i 2)

/-- On an input of real numbers the two arrangements are one function. -/
theorem attnBefore_eq_attnAfter (x : Sx.Idx → EReal) (hx : ∀ i, ∃ r : ℝ, x i = r) : attnBefore x = attnAfter x :=
  funext fun i => rowDivBefore_eq_rowDivAfter (ι := Fin 2048) (rowOf x (i 0) (i 1)) (rowsOf x (i 0))
    (fun k => hx _) (fun m k => hx _) (i 2)

end Cert.SoftmaxRow

end
-- ==== Proof.KernelValue.lean ====
/-
  The attention kernel's result array, as one function of the argument array.

  At grid point (b, j) the query window holds rows 1024·j … 1024·j + 1023 of batch b, the key-value window the whole
  batch b, and the output window writes the same rows of batch b back. Row n, column d of the tile the body stores is one
  row of softmax attention on those two blocks (the stored value at an index), and the blocks are restrictions of the one
  argument array x: the tile's query row is x[b, 1024·j + n, :] and the keys and values are x[b, :, :]. So what the point
  writes back is block (b, j) of `attnAfter x`; the sixteen blocks tile the result array, which therefore ends at
  `attnAfter x`.
-/
import proofs.«173736_j6270652252306_2_alg».proof.Proof.KernelIdealRun
import proofs.«173736_j6270652252306_2_alg».proof.Proof.KernelPayload
import proofs.«173736_j6270652252306_2_alg».proof.Proof.AttnSpec
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.ValueIdx Cert.SoftmaxRow
open Idealize.SL Idealize.SL.Sem
open Idealize.ShloMosaic.Pipeline (Dat Cfg Window)

variable (m : (ℓ : Loc nD τ sig) → Buf (Elt Ideal) ℓ) (ρ : Dev nD → PrngReg)

theorem hz : (![0, 0, 0] : Fin 3 → Nat) = fun _ => 0 := funext fun a => by fin_cases a <;> rfl

/-- One entry of the stored tile, when the two loaded blocks are the rows of one array X that the entry's place in the
    result names: the query row is row (b, r) of X, the keys and values are the rows of batch b. -/
theorem tile_entry (X : Sx.Idx → EReal) (x0 : Vec Ideal S1x1024x512 .f32) (x1 : Vec Ideal S1x2048x512 .f32)
    (j : S1x1024x512.Idx) (i : Sx.Idx)
    (h0 : ∀ k : Fin 512, x0 (ix3 0 (j 1) k) = X (ix3 (i 0) (i 1) k))
    (h1 : ∀ (r : Fin 2048) (k : Fin 512), x1 (ix3 0 r k) = X (ix3 (i 0) r k))
    (h2 : (i 2).val = (j 2).val) :
    k0_pay1 (F := Ideal) x0 x1 j = attnAfter X i := by
  obtain ⟨z, n, d, rfl⟩ : ∃ (z : Fin 1) (n : Fin 1024) (d : Fin 512), j = ix3 z n d := ⟨j 0, j 1, j 2, eq_ix3 j⟩
  obtain rfl : z = 0 := Subsingleton.elim _ _
  refine (pay_apply x0 x1 n d).trans ?_
  have ea : qrow x0 n = rowOf X (i 0) (i 1) := funext h0
  have eK : kvs x1 = rowsOf X (i 0) := funext fun r => funext (h1 r)
  have ed : d = (i 2) := Fin.ext h2.symm
  rw [ea, eK, ed]
  rfl

/-- The printed index maps over the grid: the query window and the output window move together; the key-value window
    follows the batch only; no window moves along the features. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (batch, half) pair is some point's output block. -/
theorem idx_onto : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])

/-- What point t writes back is block t of attention on the argument array. -/
theorem flushed_eq (c : Dev nD) (t : Fin cfg0.N) :
    (dats m 0 c).flushed 2 t = ((cfg0.win 2).blk t).view.read (Elt Ideal) (attnAfter (V m c main_arg0)) := by
  show (cfg0.win 2).cut (grid0.coords t) ((dats m 0 c).after 2 t) = _
  rw [after_o]
  unfold tileOut
  rw [View.canon_unit_zero hz]
  simp only [View.ld_unit_zero (S := S1x1024x512) hz, View.ld_unit_zero (S := S1x2048x512) hz]
  obtain ⟨e00, e01, e02, e10, e11, e12, e22⟩ := idx_facts t
  funext j
  have hj0 : (j 0).val < 1 := (j 0).isLt
  refine tile_entry (V m c main_arg0) (iblk m c 0 t) (iblk m c 1 t) j (((cfg0.win 2).blk t).view.emb j) (fun k => ?_) (fun r k => ?_) ?_
  · refine congrArg (V m c main_arg0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 512 + 1 * k.val = k.val; omega
  · refine congrArg (V m c main_arg0) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 2048 + 1 * r.val = r.val; omega
    | ⟨2, _⟩ => show win0_1.index t (2 : Fin 3) * 512 + 1 * k.val = k.val; omega
  · show win0_2.index t (2 : Fin 3) * 512 + 1 * (j 2).val = (j 2).val; omega

/-- An index of the result array is in point t's block iff each coordinate is in the block's range on its axis. -/
theorem mem_blk (t : Fin cfg0.N) (i : S8x2048x512.Idx) :
    i ∈ ((cfg0.win 2).blk t).view.set ↔ ∀ a : Fin 3, win0_2.index t a * S1x1024x512.size a ≤ (i a).val ∧ (i a).val < win0_2.index t a * S1x1024x512.size a + S1x1024x512.size a := by
  show i ∈ ((View.whole main_v0).slice (win0_2.rect t)).set ↔ _
  rw [View.set_slice_whole, Rect.mem_set_unit]
  exact Iff.rfl

/-- The sixteen output blocks tile the result array: row r of batch b is in the block of point (b, r / 1024). -/
theorem cover (i : S8x2048x512.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- The result array after the run: attention on the argument array. -/
theorem final (c : Dev nD) : (dats m 0 c).arrAt 2 cfg0.N = attnAfter (m ((c.tc : Thread nD τ).loc main_arg0)) :=
  (dats m 0 c).arrAt_eq_of_cover 2 (attnAfter (V m c main_arg0)) (fun t _ => flushed_eq m c t) cover

/-- The run, read: every weakly fair execution terminates with the result array at attention on the argument array,
    the argument unchanged. -/
theorem run_value : θ_run defs (onTc (τ := τ) (main (F := Ideal))) ⟨m, fun _ => 0, ρ⟩ (fun r => ∀ c : Dev nD,
      r.2.mem ((c.tc : Thread nD τ).loc main_v0) = attnAfter (m ((c.tc : Thread nD τ).loc main_arg0))
      ∧ r.2.mem ((c.tc : Thread nD τ).loc main_arg0) = m ((c.tc : Thread nD τ).loc main_arg0)) :=
  (θ_run defs _ _).mono (fun _ h c => ⟨(h c).1.trans (final m c), (h c).2⟩) (run_result m ρ)

end Cert.KernelIdeal.Attn

end
-- ==== Proof.RefValue.lean ====
/-
  The reference program's result, read index by index.

  The reference computes, for the whole array at once: the scores x·xᵀ per batch, each row's maximum from −∞ (and the
  maximum of that with −∞ again, which changes nothing), the exponentials of the scores less the row's maximum, each
  row's sum of them from zero, every exponential divided by its row's sum, the product of these weights with x per
  batch, and that times x. Entry (b, n, d) is one row of softmax attention with every weight divided by the normaliser
  before the weighted sum: `attnBefore`.
-/
import proofs.«173736_j6270652252306_2_alg».proof.Proof.Gen.ReferenceIdeal.Read
import proofs.«173736_j6270652252306_2_alg».proof.Proof.AttnSpec
import Idealize.ShloMosaic.PureOps.Reduce

set_option maxRecDepth 16384

noncomputable section

namespace Cert.ReferenceIdeal.Attn

open Cert.ReferenceIdeal Cert.ReferenceIdeal.Gen Cert.ReferenceIdeal.Read
open Idealize.ShloMosaic Idealize.ShloMosaic.ValueIdx Cert.SoftmaxRow

variable (x : (⟨S8x2048x512, .f32⟩ : BufTy).Contents (Elt Ideal)) (b : Fin 8) (n : Fin 2048)

/-- Row n of batch b against row m: the score. -/
theorem v0_at (m : Fin 2048) : val_main_v0 (F := Ideal) x (ix3 b n m) = score (rowOf x b n) (rowsOf x b) m := by
  refine (val_main_v0_apply x _).trans ?_
  refine Finset.sum_congr rfl fun k _ => ?_
  have el : lidx_main_v0 (ix3 b n m) k = ix3 b n k := funext fun a => Fin.ext (by match a with | ⟨0, _⟩ => rfl | ⟨1, _⟩ => rfl | ⟨2, _⟩ => rfl)
  have er : ridx_main_v0 (ix3 b n m) k = ix3 b m k := funext fun a => Fin.ext (by match a with | ⟨0, _⟩ => rfl | ⟨1, _⟩ => rfl | ⟨2, _⟩ => rfl)
  rw [el, er]

/-- Row (b, n) of a [8, 2048, 2048] array with the key coordinate m put back. -/
theorem lift_row (h : S8x2048x2048.Reduces [2] S8x2048) (m : Fin 2048) : h.lift (ix2 b n) m = ix3 b n m := by
  funext c; apply Fin.ext
  match c with
  | ⟨0, _⟩ => rfl
  | ⟨1, _⟩ => rfl
  | ⟨2, _⟩ => rfl

theorem ofBits_neg_inf : Ideal.ofBits .f32 0xFF800000#32 = (⊥ : EReal) := by simp [Ideal.ofBits, Ideal.ieee]

theorem reduces_row : S8x2048x2048.Reduces [2] S8x2048 := by decide

/-- The host's reduce with a maximum body along the keys, from −∞, is the fold of `max` over the row. -/
theorem hostmax_apply (v : FVec Ideal S8x2048x2048 .f32) (init : FVec Ideal S_ .f32) (h' : S8x2048x2048.ReducesTo [2] S8x2048)
    (hu : 0 < S_.numel) (hinit : init (Shape.Idx.first hu) = (⊥ : EReal)) :
    Host.reduce (FloatOps.maximumf (F := Ideal) (φ := .f32)) v init h' hu (ix2 b n) = rowMax (fun m : Fin 2048 => v (ix3 b n m)) := by
  refine (Host.reduce_eq_fold_single (FloatOps.maximumf (F := Ideal) (φ := .f32)) v init h' reduces_row hu (ix2 b n)).trans ?_
  unfold rowMax
  rw [hinit]
  exact congrArg (fun f => Finset.fold max (⊥ : EReal) f (Finset.univ : Finset (Fin 2048)))
    (funext fun m => congrArg v (lift_row b n reduces_row m))

/-- The row's maximum score, from −∞. -/
theorem v1_at : val_main_v1 (F := Ideal) x (ix2 b n) = rowMax (score (rowOf x b n) (rowsOf x b)) := by
  unfold val_main_v1
  refine (hostmax_apply b n _ _ _ _ ofBits_neg_inf).trans ?_
  exact congrArg rowMax (funext fun m => v0_at x b n m)

/-- Taking the maximum with −∞ once more changes nothing. -/
theorem v3_at : val_main_v3 (F := Ideal) x (ix2 b n) = rowMax (score (rowOf x b n) (rowsOf x b)) := by
  rw [val_main_v3_apply, val_main_v2_apply, val_main_cst_0_apply, v1_at]
  show max (Ideal.ofBits .f32 0xFF800000#32) _ = _
  rw [ofBits_neg_inf]
  exact max_eq_right bot_le

/-- The row's maximum spread along the row. -/
theorem v5_at (m : Fin 2048) : val_main_v5 (F := Ideal) x (ix3 b n m) = rowMax (score (rowOf x b n) (rowsOf x b)) := by
  rw [val_main_v5_apply, val_main_v4_apply]
  have e : idx_main_v4 (idx_main_v5 (ix3 b n m)) = ix2 b n := funext fun a => Fin.ext (by match a with | ⟨0, _⟩ => rfl | ⟨1, _⟩ => rfl)
  rw [e, v3_at]

/-- The unnormalised weight. -/
theorem v7_at (m : Fin 2048) : val_main_v7 (F := Ideal) x (ix3 b n m) = weight (rowOf x b n) (rowsOf x b) m := by
  rw [val_main_v7_apply, val_main_v6_apply, v0_at, v5_at]
  rfl

/-- The row's normaliser, from zero. -/
theorem v8_at : val_main_v8 (F := Ideal) x (ix2 b n) = ∑ m : Fin 2048, weight (rowOf x b n) (rowsOf x b) m := by
  rw [val_main_v8_apply, val_main_cst_1_apply]
  show Ideal.ofBits .f32 0x00000000#32 + _ = _
  rw [Ideal.ofBits_zero_f32, zero_add]
  refine Finset.sum_congr rfl fun m _ => ?_
  have e : idx_main_v8 (ix2 b n) m = ix3 b n m := funext fun a => Fin.ext (by match a with | ⟨0, _⟩ => rfl | ⟨1, _⟩ => rfl | ⟨2, _⟩ => rfl)
  rw [e, v7_at]

/-- The normaliser spread along the row. -/
theorem v10_at (m : Fin 2048) : val_main_v10 (F := Ideal) x (ix3 b n m) = ∑ m' : Fin 2048, weight (rowOf x b n) (rowsOf x b) m' := by
  rw [val_main_v10_apply, val_main_v9_apply]
  have e : idx_main_v9 (idx_main_v10 (ix3 b n m)) = ix2 b n := funext fun a => Fin.ext (by match a with | ⟨0, _⟩ => rfl | ⟨1, _⟩ => rfl)
  rw [e, v8_at]

/-- The normalised weight. -/
theorem v11_at (m : Fin 2048) : val_main_v11 (F := Ideal) x (ix3 b n m)
    = Ideal.div (weight (rowOf x b n) (rowsOf x b) m) (∑ m' : Fin 2048, weight (rowOf x b n) (rowsOf x b) m') := by
  rw [val_main_v11_apply, v7_at, v10_at]
  rfl

/-- The weighted sum of the values. -/
theorem v12_at (d : Fin 512) : val_main_v12 (F := Ideal) x (ix3 b n d)
    = ∑ m : Fin 2048, Ideal.div (weight (rowOf x b n) (rowsOf x b) m) (∑ m' : Fin 2048, weight (rowOf x b n) (rowsOf x b) m') * rowsOf x b m d := by
  refine (val_main_v12_apply x _).trans ?_
  refine Finset.sum_congr rfl fun m _ => ?_
  have el : lidx_main_v12 (ix3 b n d) m = ix3 b n m := funext fun a => Fin.ext (by match a with | ⟨0, _⟩ => rfl | ⟨1, _⟩ => rfl | ⟨2, _⟩ => rfl)
  have er : ridx_main_v12 (ix3 b n d) m = ix3 b m d := funext fun a => Fin.ext (by match a with | ⟨0, _⟩ => rfl | ⟨1, _⟩ => rfl | ⟨2, _⟩ => rfl)
  rw [el, er, v11_at]

/-- The reference's result is attention with every weight divided first. -/
theorem result_eq (x : (⟨S8x2048x512, .f32⟩ : BufTy).Contents (Elt Ideal)) : val_main_v13 (F := Ideal) x = attnBefore x := by
  funext i
  obtain ⟨b, n, d, rfl⟩ : ∃ (b : Fin 8) (n : Fin 2048) (d : Fin 512), i = ix3 b n d := ⟨i 0, i 1, i 2, eq_ix3 i⟩
  rw [val_main_v13_apply, v12_at]
  rfl

end Cert.ReferenceIdeal.Attn

end
-- ==== Proof.Finite.lean ====
/-
  The precondition, read: every entry of the input is a real number.

  The precondition compares the absolute value of every entry with +∞ and takes the conjunction over all entries. If the
  conjunction is true, every comparison is: |x i| < +∞, and an extended real whose absolute value is below +∞ is neither
  infinity, so it is a real.
-/
import proofs.«173736_j6270652252306_2_alg».proof.Pre_finite_inputs
import proofs.«173736_j6270652252306_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Attn

open Cert.Pre_finite_inputs Cert.Pre_finite_inputs.Gen
open Idealize.ShloMosaic Idealize.ShloMosaic.ValueIdx

instance : Subsingleton S_.Idx := ⟨fun a b => funext fun d => d.elim0⟩

/-- +∞ as a float pattern is the top of the extended reals. -/
theorem ofBits_pos_inf : Ideal.ofBits .f32 0x7F800000#32 = (⊤ : EReal) := by simp [Ideal.ofBits, Ideal.ieee]

/-- An extended real whose absolute value is below +∞ is a real. -/
theorem real_of_abs_lt_top (a : EReal) (h : max a (-a) < ⊤) : ∃ r : ℝ, a = r := by
  induction a using EReal.rec with
  | bot => simp at h
  | top => simp at h
  | coe r => exact ⟨r, rfl⟩

/-- Under the precondition every entry of the input is a real. -/
theorem real_of_pre (x : FVec Ideal S8x2048x512 .f32) (h : fn (F := Ideal) x = fun _ => 1#1) (i : S8x2048x512.Idx) :
    ∃ r : ℝ, x i = r := by
  have h0 := congrFun h ix0
  dsimp only [fn] at h0
  have hi := Host.reduce_andi_all _ _ _ _ _ h0 i
  change Ideal.cmp .olt (max (x i) (-(x i))) (Ideal.ofBits .f32 0x7F800000#32) = 1#1 at hi
  rw [ofBits_pos_inf] at hi
  refine real_of_abs_lt_top (x i) ?_
  by_contra hn
  have : Ideal.cmp .olt (max (x i) (-(x i))) ⊤ = 0#1 := by
    unfold Ideal.cmp
    simp [hn]
  rw [this] at hi
  exact absurd hi (by decide)

end Cert.Pre_finite_inputs.Attn

end
-- ==== Proof.lean ====
/-
  Single-pass softmax self-attention, (softmax (x·xᵀ) · x) ⊙ x per batch, for x : f32[8, 2048, 512]: the tiled kernel
  against the whole-array reference, on the extended reals.

  The kernel walks a grid of 8 × 2 points; at point (b, j) it holds the query rows 1024·j … 1024·j + 1023 of batch b and
  all 2048 rows of batch b as keys and values, and writes the same query rows of the result. For one query row it takes
  the scores against every key, their maximum, the exponentials of the scores less the maximum, the sum l of the
  exponentials, the sum of the exponentials times the values, divides that sum by l and multiplies by the query's own
  entry. The reference does the same for the whole array at once, except that it divides every exponential by l before
  the weighted sum. The two differ only by moving the division by l across a finite sum; on the extended reals that needs
  l and the summands to be real, which the precondition gives: every input entry is real, so every score is, the maximum
  of finitely many reals is one of them, every exponential is a positive real and so is their sum.

  Both programs also run to the end without a fault and leave the input as it was. The kernel's two input windows read
  one array, so the array's ownership is split in halves between them for the run; the reference is a straight line of
  whole-array operations. No operation was rewritten between the kernel as printed and its reading on the extended
  reals, so there is nothing to preserve.
-/
import proofs.«173736_j6270652252306_2_alg».proof.Defs
import proofs.«173736_j6270652252306_2_alg».proof.Proof.Gen.Kernel
import proofs.«173736_j6270652252306_2_alg».proof.Proof.Gen.KernelIdeal
import proofs.«173736_j6270652252306_2_alg».proof.Proof.Gen.ReferenceIdeal
import proofs.«173736_j6270652252306_2_alg».proof.Proof.Gen.Pre_finite_inputs
import proofs.«173736_j6270652252306_2_alg».proof.Proof.Gen.ReferenceIdeal.Run
import proofs.«173736_j6270652252306_2_alg».proof.Proof.Gen.ReferenceIdeal.Read
import proofs.«173736_j6270652252306_2_alg».proof.Proof.KernelRun
import proofs.«173736_j6270652252306_2_alg».proof.Proof.KernelValue
import proofs.«173736_j6270652252306_2_alg».proof.Proof.RefValue
import proofs.«173736_j6270652252306_2_alg».proof.Proof.Finite
import Idealize.ShloMosaic.Adequacy
import Idealize.ShloMosaic.Init

noncomputable section

namespace Cert.Proof

open Idealize.ShloMosaic Idealize.SL.Sem Cert.SoftmaxRow

/-- The kernel as printed runs to the end, faults nowhere and leaves the input unchanged. -/
theorem frame_kernel : Cert.frame_Kernel := fun m ρ _ => Cert.Kernel.Attn.frame m ρ

/-- So does the kernel read on the extended reals. -/
theorem frame_kernelIdeal : Cert.frame_KernelIdeal := fun m ρ _ => Cert.KernelIdeal.Attn.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On real inputs the kernel's result (the division after the weighted sum) and the reference's (every weight divided
    first) are the same array. -/
theorem algebraic : Cert.algebraic_KernelIdeal_ReferenceIdeal := by
  intro m ρ m' ρ' hpre hagree
  refine ⟨fun c => attnAfter (m ((c.tc : Thread Cert.KernelIdeal.nD Cert.KernelIdeal.τ).loc Cert.KernelIdeal.main_arg0)),
    Cert.KernelIdeal.Attn.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Attn.result_eq, hagree c]
  exact attnBefore_eq_attnAfter _ (fun i => Cert.Pre_finite_inputs.Attn.real_of_pre _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
